-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S50000x32 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S50000x32x1 : Shape := ⟨3, ![50000, 32, 1]⟩
abbrev S50000x32x128 : Shape := ⟨3, ![50000, 32, 128]⟩
abbrev S1000x32x128 : Shape := ⟨3, ![1000, 32, 128]⟩
abbrev S1000x128 : Shape := ⟨2, ![1000, 128]⟩
abbrev S1000x1x128 : Shape := ⟨3, ![1000, 1, 128]⟩

abbrev nBuf : Space → Nat
  | .hbm => 16
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S50000x128, .bf16⟩
  | .hbm, ⟨6, _⟩ => ⟨S_, .i32⟩
  | .hbm, ⟨7, _⟩ => ⟨S50000x32, .i32⟩
  | .hbm, ⟨8, _⟩ => ⟨S50000x32, .i1⟩
  | .hbm, ⟨9, _⟩ => ⟨S_, .i32⟩
  | .hbm, ⟨10, _⟩ => ⟨S50000x32, .i32⟩
  | .hbm, ⟨11, _⟩ => ⟨S50000x32, .i32⟩
  | .hbm, ⟨12, _⟩ => ⟨S50000x32, .i32⟩
  | .hbm, ⟨13, _⟩ => ⟨S50000x32x1, .i32⟩
  | .hbm, ⟨14, _⟩ => ⟨S50000x32x128, .bf16⟩
  | .hbm, ⟨15, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .bf16⟩
  | .local _ .vmem, ⟨5, _⟩ => ⟨S5000x128, .bf16⟩
  | .local _ .vmem, ⟨6, _⟩ => ⟨S1000x32x128, .bf16⟩
  | .local _ .vmem, ⟨7, _⟩ => ⟨S1000x32x128, .bf16⟩
  | .local _ .vmem, ⟨8, _⟩ => ⟨S1000x128, .f32⟩
  | .local _ .vmem, ⟨9, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x32x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  inb_S1000x32x128_S1000x1x128_0_0_0 : ∀ a, (![0, 0, 0] : Fin 3 → Nat) a + S1000x1x128.size a ≤ S1000x32x128.size a
  h_S1000x1x128 : 0 < S1000x1x128.numel
  shapeCasts_S1000x1x128_S1000x128 : S1000x1x128.ShapeCasts S1000x128
  inb_S1000x32x128_S1000x1x128_0_1_0 : ∀ a, (![0, 1, 0] : Fin 3 → Nat) a + S1000x1x128.size a ≤ S1000x32x128.size a
  inb_S1000x32x128_S1000x1x128_0_2_0 : ∀ a, (![0, 2, 0] : Fin 3 → Nat) a + S1000x1x128.size a ≤ S1000x32x128.size a
  inb_S1000x32x128_S1000x1x128_0_3_0 : ∀ a, (![0, 3, 0] : Fin 3 → Nat) a + S1000x1x128.size a ≤ S1000x32x128.size a
  inb_S1000x32x128_S1000x1x128_0_4_0 : ∀ a, (![0, 4, 0] : Fin 3 → Nat) a + S1000x1x128.size a ≤ S1000x32x128.size a
  inb_S1000x32x128_S1000x1x128_0_5_0 : ∀ a, (![0, 5, 0] : Fin 3 → Nat) a + S1000x1x128.size a ≤ S1000x32x128.size a
  inb_S1000x32x128_S1000x1x128_0_6_0 : ∀ a, (![0, 6, 0] : Fin 3 → Nat) a + S1000x1x128.size a ≤ S1000x32x128.size a
  inb_S1000x32x128_S1000x1x128_0_7_0 : ∀ a, (![0, 7, 0] : Fin 3 → Nat) a + S1000x1x128.size a ≤ S1000x32x128.size a
  inb_S1000x32x128_S1000x1x128_0_8_0 : ∀ a, (![0, 8, 0] : Fin 3 → Nat) a + S1000x1x128.size a ≤ S1000x32x128.size a
  inb_S1000x32x128_S1000x1x128_0_9_0 : ∀ a, (![0, 9, 0] : Fin 3 → Nat) a + S1000x1x128.size a ≤ S1000x32x128.size a
  inb_S1000x32x128_S1000x1x128_0_10_0 : ∀ a, (![0, 10, 0] : Fin 3 → Nat) a + S1000x1x128.size a ≤ S1000x32x128.size a
  inb_S1000x32x128_S1000x1x128_0_11_0 : ∀ a, (![0, 11, 0] : Fin 3 → Nat) a + S1000x1x128.size a ≤ S1000x32x128.size a
  inb_S1000x32x128_S1000x1x128_0_12_0 : ∀ a, (![0, 12, 0] : Fin 3 → Nat) a + S1000x1x128.size a ≤ S1000x32x128.size a
  inb_S1000x32x128_S1000x1x128_0_13_0 : ∀ a, (![0, 13, 0] : Fin 3 → Nat) a + S1000x1x128.size a ≤ S1000x32x128.size a
  inb_S1000x32x128_S1000x1x128_0_14_0 : ∀ a, (![0, 14, 0] : Fin 3 → Nat) a + S1000x1x128.size a ≤ S1000x32x128.size a
  inb_S1000x32x128_S1000x1x128_0_15_0 : ∀ a, (![0, 15, 0] : Fin 3 → Nat) a + S1000x1x128.size a ≤ S1000x32x128.size a
  inb_S1000x32x128_S1000x1x128_0_16_0 : ∀ a, (![0, 16, 0] : Fin 3 → Nat) a + S1000x1x128.size a ≤ S1000x32x128.size a
  inb_S1000x32x128_S1000x1x128_0_17_0 : ∀ a, (![0, 17, 0] : Fin 3 → Nat) a + S1000x1x128.size a ≤ S1000x32x128.size a
  inb_S1000x32x128_S1000x1x128_0_18_0 : ∀ a, (![0, 18, 0] : Fin 3 → Nat) a + S1000x1x128.size a ≤ S1000x32x128.size a
  inb_S1000x32x128_S1000x1x128_0_19_0 : ∀ a, (![0, 19, 0] : Fin 3 → Nat) a + S1000x1x128.size a ≤ S1000x32x128.size a
  inb_S1000x32x128_S1000x1x128_0_20_0 : ∀ a, (![0, 20, 0] : Fin 3 → Nat) a + S1000x1x128.size a ≤ S1000x32x128.size a
  inb_S1000x32x128_S1000x1x128_0_21_0 : ∀ a, (![0, 21, 0] : Fin 3 → Nat) a + S1000x1x128.size a ≤ S1000x32x128.size a
  inb_S1000x32x128_S1000x1x128_0_22_0 : ∀ a, (![0, 22, 0] : Fin 3 → Nat) a + S1000x1x128.size a ≤ S1000x32x128.size a
  inb_S1000x32x128_S1000x1x128_0_23_0 : ∀ a, (![0, 23, 0] : Fin 3 → Nat) a + S1000x1x128.size a ≤ S1000x32x128.size a
  inb_S1000x32x128_S1000x1x128_0_24_0 : ∀ a, (![0, 24, 0] : Fin 3 → Nat) a + S1000x1x128.size a ≤ S1000x32x128.size a
  inb_S1000x32x128_S1000x1x128_0_25_0 : ∀ a, (![0, 25, 0] : Fin 3 → Nat) a + S1000x1x128.size a ≤ S1000x32x128.size a
  inb_S1000x32x128_S1000x1x128_0_26_0 : ∀ a, (![0, 26, 0] : Fin 3 → Nat) a + S1000x1x128.size a ≤ S1000x32x128.size a
  inb_S1000x32x128_S1000x1x128_0_27_0 : ∀ a, (![0, 27, 0] : Fin 3 → Nat) a + S1000x1x128.size a ≤ S1000x32x128.size a
  inb_S1000x32x128_S1000x1x128_0_28_0 : ∀ a, (![0, 28, 0] : Fin 3 → Nat) a + S1000x1x128.size a ≤ S1000x32x128.size a
  inb_S1000x32x128_S1000x1x128_0_29_0 : ∀ a, (![0, 29, 0] : Fin 3 → Nat) a + S1000x1x128.size a ≤ S1000x32x128.size a
  inb_S1000x32x128_S1000x1x128_0_30_0 : ∀ a, (![0, 30, 0] : Fin 3 → Nat) a + S1000x1x128.size a ≤ S1000x32x128.size a
  inb_S1000x32x128_S1000x1x128_0_31_0 : ∀ a, (![0, 31, 0] : Fin 3 → Nat) a + S1000x1x128.size a ≤ S1000x32x128.size a
  inb_S1000x128_S1000x128_0_0 : ∀ a, (![0, 0] : Fin 2 → Nat) a + S1000x128.size a ≤ S1000x128.size a
  h_S1000x128 : 0 < S1000x128.numel
  dot_S5000x128_S128x128_S5000x128_1_0_0_1_n_n_wf : DotDims.WF S5000x128 S128x128 S5000x128 [1] [0] [0] [1] [] []
  gather_S50000x128_S50000x32x1_S50000x32x128_2_0_n_n_0_2_1128_wf : GatherDims.WF S50000x128 S50000x32x1 S50000x32x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x32x128.size a ≤ S50000x32x128.size a
  hwx1_0 : ∀ i : grid1.Coords, EltTy.bits .bf16 = 32 ∨ (Rect.block (s := S50000x32x128) S1000x32x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1000x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x32 : Shape := ⟨2, ![50000, 32]⟩
abbrev S128x128 : Shape := ⟨2, ![128, 128]⟩
abbrev S128 : Shape := ⟨1, ![128]⟩
abbrev S_ : Shape := ⟨0, ![]⟩
abbrev S50000x32x1 : Shape := ⟨3, ![50000, 32, 1]⟩
abbrev S50000x32x128 : Shape := ⟨3, ![50000, 32, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32, .i32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S50000x32, .i32⟩
  | .hbm, ⟨6, _⟩ => ⟨S50000x32, .i1⟩
  | .hbm, ⟨7, _⟩ => ⟨S_, .i32⟩
  | .hbm, ⟨8, _⟩ => ⟨S50000x32, .i32⟩
  | .hbm, ⟨9, _⟩ => ⟨S50000x32, .i32⟩
  | .hbm, ⟨10, _⟩ => ⟨S50000x32, .i32⟩
  | .hbm, ⟨11, _⟩ => ⟨S50000x32x1, .i32⟩
  | .hbm, ⟨12, _⟩ => ⟨S50000x32x128, .f32⟩
  | .hbm, ⟨13, _⟩ => ⟨S50000x32x128, .f32⟩
  | .hbm, ⟨14, _⟩ => ⟨S1x1x128, .f32⟩
  | .hbm, ⟨15, _⟩ => ⟨S50000x32x128, .f32⟩
  | .hbm, ⟨16, _⟩ => ⟨S50000x32x128, .f32⟩
  | .hbm, ⟨17, _⟩ => ⟨S_, .f32⟩
  | .hbm, ⟨18, _⟩ => ⟨S50000x32x128, .f32⟩
  | .hbm, ⟨19, _⟩ => ⟨S50000x32x128, .f32⟩
  | .hbm, ⟨20, _⟩ => ⟨S_, .f32⟩
  | .hbm, ⟨21, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S128_S1x1x128_2 : S128.BroadcastsInDim S1x1x128 (![2] : Fin 1 → Fin S1x1x128.rank)
  bcast_S1x1x128_S50000x32x128_0_1_2 : S1x1x128.BroadcastsInDim S50000x32x128 (![0, 1, 2] : Fin 3 → Fin S50000x32x128.rank)
  bcast_S_S50000x32x128 : S_.BroadcastsInDim S50000x32x128 (![] : Fin 0 → Fin S50000x32x128.rank)
  reducesTo_S50000x32x128_S50000x128_d1 : S50000x32x128.ReducesTo [1] S50000x128
  h_S_ : 0 < S_.numel
  gather_S50000x128_S50000x32x1_S50000x32x128_2_0_n_n_0_2_1128_wf : GatherDims.WF S50000x128 S50000x32x1 S50000x32x128 [2] [0] [] [0] [] 2 ![1, 128]
  dot_S50000x32x128_S128x128_S50000x32x128_2_1_01_0_n_n_wf : DotDims.WF S50000x32x128 S128x128 S50000x32x128 [2] [1] [0, 1] [0] [] []

variable [Facts₀]

def gather_S50000x128_S50000x32x1_S50000x32x128_2_0_n_n_0_2_1128 : GatherDims S50000x128 S50000x32x1 S50000x32x128 where
  offsetDims := [2]
  collapsedSliceDims := [0]
  operandBatchingDims := []
  startIndicesBatchingDims := []
  startIndexMap := [0]
  indexVectorDim := 2
  sliceSizes := ![1, 128]
  wf := gather_S50000x128_S50000x32x1_S50000x32x128_2_0_n_n_0_2_1128_wf
def dot_S50000x32x128_S128x128_S50000x32x128_2_1_01_0_n_n : DotDims S50000x32x128 S128x128 S50000x32x128 where
  lhsContracting := [2]
  rhsContracting := [1]
  lhsNonContracting := [0, 1]
  rhsNonContracting := [0]
  lhsBatch := []
  rhsBatch := []
  wf := dot_S50000x32x128_S128x128_S50000x32x128_2_1_01_0_n_n_wf

class Facts : Prop extends Facts₀ where

variable [Facts]
-- ==== Proof.LibRowGather.lean ====
/-
  Two general facts, independent of any program.

  1. ROWS GATHERED FROM A MATRIX.  `x[idx]` for a matrix `x : [N, D]` and an integer array `idx : [R, C]` lowers to a
     `stablehlo.gather` with offset axis 2, collapsed axis 0, start index map [0], the start indices reshaped to
     `[R, C, 1]` and slices of size `[1, D]`.  Its element `(r, k, o)` is `x` at row `idx[r, k, 0]` — read as a signed
     integer and clamped into `[0, N − 1]`, as the gather clamps every start index — and column `o`.  The row does not
     depend on `o`: a gathered row is a whole row of `x` (`gather_rows_apply`).

  2. A FOLD OVER `Fin (n + 1)` of a commutative, associative operation, from an initial value that the first term
     absorbs, is the running fold that starts at the first term and takes in the others in order
     (`foldl_ofFn_succ_eq_fold_univ`): a running maximum started at the first element is the maximum from −∞.
-/
import Idealize.ShloMosaic.Lib.ValueIdx
import Mathlib.Data.Multiset.Fold
import Mathlib.Data.Fintype.Basic
import Mathlib.Data.List.OfFn

noncomputable section

namespace Cert.Lib

open Idealize.ShloMosaic Idealize.ShloMosaic.ValueIdx

/-! ## Rows gathered from a matrix -/

section RowGather
variable {α : Type}

/-- The dimension numbers of `x[idx]` for an operand `[N, D]`, start indices `[R, C, 1]` and result `[R, C, D]`;
    their conditions `wf` are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row of the operand that result rows `(r, k, ·)` read: the start index `idx[r, k, 0]`, signed, clamped into
    `[0, N − 1]`. -/
def rowOf {N R C w : Nat} (hN : 0 < N) (idx : IVec ⟨3, ![R, C, 1]⟩ w) (r : Fin R) (k : Fin C) : Fin N :=
  ⟨min (idx (ix3 r k (0 : Fin 1))).toInt.toNat (N - 1), by omega⟩

/-- THE GATHER READ AT `(r, k, o)`: the operand at row `rowOf idx r k`, column `o`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (k : Fin C) (o : Fin D) :
    Host.gather (rowDims N D R C wf) x idx (ix3 r k o) = x (ix2 (rowOf hN idx r k) o) := by
  unfold Host.gather
  congr 1
  funext a
  refine Fin.ext ?_
  match a with
  | ⟨0, _⟩ =>
    show (rowDims N D R C wf).start (ix3 r k o) idx 0 + (rowDims N D R C wf).batchCoord (ix3 r k o) 0
        + (rowDims N D R C wf).offCoord (ix3 r k o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r k o) ⟨List.idxOf (0 : Fin 2) (rowDims N D R C wf).startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 r k o) idx 1 + (rowDims N D R C wf).batchCoord (ix3 r k o) 1
        + (rowDims N D R C wf).offCoord (ix3 r k o) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowDims N D R C wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add]
    rfl

end RowGather

/-! ## A fold over `Fin (n + 1)` as a running fold from its first term -/

section Fold
variable {β : Type}

/-- A fold over `Fin n` of a commutative, associative operation is the left fold over the terms in order. -/
theorem fold_univ_eq_foldl_ofFn (op : β → β → β) [Std.Commutative op] [Std.Associative op] (b : β) {n : Nat}
    (f : Fin n → β) : (Finset.univ : Finset (Fin n)).fold op b f = List.foldl op b (List.ofFn f) := by
  unfold Finset.fold
  rw [Fin.univ_val_map]
  exact Multiset.coe_fold_l op b (List.ofFn f)

/-- When the first term absorbs the initial value (`op b (y 0) = y 0`: −∞ under a maximum), the fold over
    `Fin (n + 1)` is the running fold started AT the first term over the remaining terms in order. -/
theorem foldl_ofFn_succ_eq_fold_univ (op : β → β → β) [Std.Commutative op] [Std.Associative op] (b : β) {n : Nat}
    (y : Fin (n + 1) → β) (hb : op b (y 0) = y 0) :
    List.foldl op (y 0) (List.ofFn fun i : Fin n => y i.succ) = (Finset.univ : Finset (Fin (n + 1))).fold op b y := by
  rw [fold_univ_eq_foldl_ofFn, List.ofFn_succ, List.foldl_cons, hb]

end Fold

end Cert.Lib

end
-- ==== Proof.Spec.lean ====
/-
  THE SPECIFICATION, stated over plain arrays of extended reals and free of either program.

  A graph layer over 50000 nodes with 128 input and 128 output features and 32 neighbour slots per node.  One node's
  transformed feature vector is `relu (W · x_r + b)`:

      node x W b r o  =  max (∑ i, x[r, i] · W[o, i] + b[o]) 0 .

  The layer's result at node `n`, feature `o` is the maximum, from −∞, over the 32 neighbour slots `k` of the transformed
  feature of the node in slot `k` — the row the start-index array `J` names at `(n, k)`, read signed and clamped into the
  node range as a gather clamps it:

      pooled x J W b (n, o)  =  max_k  node x W b (row J n k) o .

  Both programs compute this function: one transforms every node once and then gathers the transformed rows, the other
  gathers the raw rows and transforms each gathered copy.  They agree because a gathered row is a whole row of its
  operand, so the per-row transformation commutes with the gather; no algebraic law beyond that is used, and in
  particular nothing about finiteness of the inputs.
-/
import proofs.«144462_j19155554140404_2_alg».proof.Proof.LibRowGather
import Idealize.ShloMosaic.PureOps.Ideal
import Idealize.ShloMosaic.Lib.ValueIdx

noncomputable section

namespace Cert.Spec

open Idealize.ShloMosaic Idealize.ShloMosaic.ValueIdx Cert.Lib

/-- The node count is positive: the clamp of a start index into `[0, 50000 − 1]` is a node. -/
theorem nodes_pos : 0 < 50000 := by decide

/-- One node's transformed feature: `relu` of the affine map of row `r` of `x`, at output feature `o`. -/
def node (x : (⟨2, ![50000, 128]⟩ : Shape).Idx → EReal) (W : (⟨2, ![128, 128]⟩ : Shape).Idx → EReal)
    (b : (⟨1, ![128]⟩ : Shape).Idx → EReal) (r : Fin 50000) (o : Fin 128) : EReal :=
  max ((∑ i : Fin 128, x (ix2 r i) * W (ix2 o i)) + b (ix1 o)) (Ideal.ofBits .f32 0x00000000#32)

/-- The layer: at node `n` and feature `o`, the maximum from −∞ over the 32 neighbour slots of the transformed
    feature of the node each slot names. -/
def pooled (x : (⟨2, ![50000, 128]⟩ : Shape).Idx → EReal) (J : IVec ⟨3, ![50000, 32, 1]⟩ 32)
    (W : (⟨2, ![128, 128]⟩ : Shape).Idx → EReal) (b : (⟨1, ![128]⟩ : Shape).Idx → EReal) :
    (⟨2, ![50000, 128]⟩ : Shape).Idx → EReal :=
  fun j => (Finset.univ : Finset (Fin 32)).fold max (Ideal.ofBits .f32 0xFF800000#32)
    fun k => node x W b (rowOf nodes_pos J (j 0) k) (j 1)

/-- The specification at an index given by its coordinates. -/
theorem pooled_ix2 (x : (⟨2, ![50000, 128]⟩ : Shape).Idx → EReal) (J : IVec ⟨3, ![50000, 32, 1]⟩ 32)
    (W : (⟨2, ![128, 128]⟩ : Shape).Idx → EReal) (b : (⟨1, ![128]⟩ : Shape).Idx → EReal) (n : Fin 50000) (o : Fin 128) :
    pooled x J W b (ix2 n o) = (Finset.univ : Finset (Fin 32)).fold max (Ideal.ofBits .f32 0xFF800000#32)
      fun k => node x W b (rowOf nodes_pos J n k) o := rfl

/-- −∞ is absorbed by a maximum. -/
theorem max_neg_inf (y : EReal) : max (Ideal.ofBits .f32 0xFF800000#32) y = y := by
  simp [Ideal.ofBits, Ideal.ieee]

end Cert.Spec

end
-- ==== Proof.RefValue.lean ====
/-
  THE REFERENCE COMPUTES THE SPECIFICATION.

  The reference gathers, for every node `n` and neighbour slot `k`, the raw feature row of the node the slot names,
  multiplies each gathered row with `W` (contracting the feature axis), adds the bias, applies `relu`, and reduces with a
  maximum from −∞ over the slot axis.  Read at node `n`, feature `o`:

    * the reduction is the fold over `k : Fin 32` of the reduced array at `(n, k, o)`;
    * there, the product is `∑ i, gathered[n, k, i] · W[o, i]`, and the gathered row `(n, k, ·)` is the whole row
      `row J n k` of `x`;
    * the bias, broadcast over nodes and slots, is `b[o]`.

  That is `Spec.pooled` at the reference's own start-index array `J` (the neighbour table with negative entries wrapped
  once, as an array `[50000, 32, 1]`).
-/
import proofs.«144462_j19155554140404_2_alg».proof.Proof.Gen.ReferenceIdeal.Read
import proofs.«144462_j19155554140404_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Lib Cert.Spec

/-- The reference's start-index array: the neighbour table, a negative entry wrapped once by the node count. -/
abbrev J (nb : (⟨S50000x32, .i32⟩ : BufTy).Contents (Elt Ideal)) : IVec ⟨3, ![50000, 32, 1]⟩ 32 :=
  val_main_v5 (F := Ideal) nb

/-- The printed gather's dimension numbers are those of a row gather. -/
theorem gatherDims_eq : gather_S50000x128_S50000x32x1_S50000x32x128_2_0_n_n_0_2_1128
    = rowDims 50000 128 50000 32 gather_S50000x128_S50000x32x1_S50000x32x128_2_0_n_n_0_2_1128.wf := rfl

/-- The gathered array at `(n, k, i)` is `x` at the row slot `(n, k)` names, column `i`. -/
theorem v6_apply (x0 : (⟨S50000x128, .f32⟩ : BufTy).Contents (Elt Ideal)) (x1 : (⟨S50000x32, .i32⟩ : BufTy).Contents (Elt Ideal))
    (n : Fin 50000) (k : Fin 32) (i : Fin 128) :
    val_main_v6 (F := Ideal) x0 x1 (ix3 n k i) = x0 (ix2 (rowOf nodes_pos (J x1) n k) i) := by
  unfold val_main_v6
  rw [gatherDims_eq]
  exact gather_rows_apply nodes_pos _ x0 (val_main_v5 (F := Ideal) x1) n k i

/-- The slot axis is the one the reduction drops. -/
theorem reduces_slots : S50000x32x128.Reduces [1] S50000x128 := by decide

/-- A reduced index `(n, o)` with slot `k` put back is `(n, k, o)`. -/
theorem lift_ix3 (n : Fin 50000) (o : Fin 128) (k : Fin (S50000x32x128.size 1)) :
    reduces_slots.lift (ix2 n o) k = ix3 n (⟨k.val, k.isLt⟩ : Fin 32) o := by
  funext c; apply Fin.ext
  fin_cases c <;> rfl

/-- The array the reduction folds, at `(n, k, o)`: the transformed feature `o` of the node in slot `(n, k)`. -/
theorem v11_apply (x0 : (⟨S50000x128, .f32⟩ : BufTy).Contents (Elt Ideal)) (x1 : (⟨S50000x32, .i32⟩ : BufTy).Contents (Elt Ideal))
    (x2 : (⟨S128x128, .f32⟩ : BufTy).Contents (Elt Ideal)) (x3 : (⟨S128, .f32⟩ : BufTy).Contents (Elt Ideal))
    (n : Fin 50000) (k : Fin 32) (o : Fin 128) :
    val_main_v11 (F := Ideal) x0 x1 x2 x3 (ix3 n k o) = node x0 x2 x3 (rowOf nodes_pos (J x1) n k) o := by
  have el : ∀ i : Fin 128, lidx_main_v7 (ix3 n k o) i = ix3 n k i := fun i => funext fun a => Fin.ext (by
    match a with
    | ⟨0, _⟩ => rfl
    | ⟨1, _⟩ => rfl
    | ⟨2, _⟩ => rfl)
  have er : ∀ i : Fin 128, ridx_main_v7 (ix3 n k o) i = ix2 o i := fun i => funext fun a => Fin.ext (by
    match a with
    | ⟨0, _⟩ => rfl
    | ⟨1, _⟩ => rfl)
  have eb : idx_main_v8 (idx_main_v9 (ix3 n k o)) = ix1 o := funext fun a => Fin.ext (by
    match a with
    | ⟨0, _⟩ => rfl)
  rw [val_main_v11_apply, val_main_v10_apply, val_main_v7_apply, val_main_v9_apply, val_main_v8_apply,
    val_main_call0_v0_apply, val_main_call0_cst_apply, eb]
  simp only [el, er, v6_apply]
  rfl

/-- THE REFERENCE'S RESULT is the specification at the reference's start-index array. -/
theorem result_eq (x0 : (⟨S50000x128, .f32⟩ : BufTy).Contents (Elt Ideal)) (x1 : (⟨S50000x32, .i32⟩ : BufTy).Contents (Elt Ideal))
    (x2 : (⟨S128x128, .f32⟩ : BufTy).Contents (Elt Ideal)) (x3 : (⟨S128, .f32⟩ : BufTy).Contents (Elt Ideal)) :
    val_main_v12 (F := Ideal) x0 x1 x2 x3 = pooled x0 (J x1) x2 x3 := by
  funext j
  obtain ⟨n, o, rfl⟩ : ∃ (n : Fin 50000) (o : Fin 128), j = ix2 n o := ⟨j 0, j 1, eq_ix2 j⟩
  unfold val_main_v12
  rw [Host.reduce_eq_fold_single FloatOps.maximumf _ _ reducesTo_S50000x32x128_S50000x128_d1 reduces_slots h_S_, pooled_ix2]
  show (Finset.univ : Finset (Fin 32)).fold max (Ideal.ofBits .f32 0xFF800000#32)
      (fun k => val_main_v11 (F := Ideal) x0 x1 x2 x3 (reduces_slots.lift (ix2 n o) k)) = _
  refine Finset.fold_congr fun k _ => ?_
  rw [lift_ix3 n o k]
  exact v11_apply x0 x1 x2 x3 n k o

end Cert.ReferenceIdeal.RefValue

end
-- ==== Proof.LinearBlocks.lean ====
/-
  THE FIRST CALL: every node transformed once.

  The first kernel call walks the 50000 node rows in 10 blocks of 5000.  At each block it loads the block of `x`, the
  whole transposed weight matrix `Wt` (`Wt[i, o] = W[o, i]`) and the bias, and stores

      y[p, q] = max (∑ i, x[p, i] · Wt[i, q] + b[q]) 0

  (the product is the matrix unit's into a zero accumulator; the changes of float format are the identity on extended
  reals).  Since the output block at point `t` is rows `5000·t … 5000·t + 4999` and the input block of `x` is the same
  rows, what point `t` writes back is the restriction of ONE whole-array function `rows x Wt b` to its block; the 10
  blocks tile the node axis, so after the call the output array is that function.
-/
import proofs.«144462_j19155554140404_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product of a block, read at an index -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into a zero accumulator the matrix unit's product of a `[5000, 128]` block with a `[128, 128]` matrix is, at
    `(p, q)`, the sum over the contracted axis. -/
theorem matmul_at (lhs : FVec Ideal S5000x128 .bf16) (rhs : FVec Ideal S128x128 .bf16) (p : Fin 5000) (q : Fin 128) :
    matmul (F := Ideal) dot_S5000x128_S128x128_S5000x128_1_0_0_1_n_n none lhs rhs (constant (F := Ideal) S5000x128 .f32 0x00000000#32) (ix2 p q) = ∑ i : Fin 128, lhs (ix2 p i) * rhs (ix2 i q) := by
  show FloatOps.matmul (F := Ideal) dot_S5000x128_S128x128_S5000x128_1_0_0_1_n_n none lhs rhs (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias as one row, broadcast down the block's rows, reads at `(p, q)` the bias at `q`. -/
theorem bias_at (v : FVec Ideal S128 .f32) (p : Fin 5000) (q : Fin 128) :
    broadcastTo S5000x128 (shapeCast S1x128 v shapeCasts_S128_S1x128) broadcasts_S1x128_S5000x128 (ix2 p q) = v (ix1 q) := by
  rw [broadcastTo_1b_ab_apply, shapeCast_a_1a_apply]

/-! ## The body's value at an index -/

/-- What the body stores, at `(p, q)` of the block: `relu` of row `p` of the `x` block against column `q` of `Wt`, plus
    the bias. -/
theorem stored_at (x0 : Vec Ideal S5000x128 .f32) (x1 : Vec Ideal S128x128 .f32) (x2 : Vec Ideal S128 .f32)
    (p : Fin 5000) (q : Fin 128) :
    k0_pay1 (F := Ideal) x0 x1 x2 (ix2 p q)
      = max ((∑ i : Fin 128, x0 (ix2 p i) * x1 (ix2 i q)) + x2 (ix1 q)) (Ideal.ofBits .f32 0x00000000#32) := by
  unfold k0_pay1
  show max (matmul (F := Ideal) dot_S5000x128_S128x128_S5000x128_1_0_0_1_n_n none (truncf (F := Ideal) .bf16 x0 bitsLt_bf16_f32)
        (truncf (F := Ideal) .bf16 (shapeCast S128x128 x1 shapeCasts_S128x128_S128x128) bitsLt_bf16_f32) (constant (F := Ideal) S5000x128 .f32 0x00000000#32) (ix2 p q)
      + broadcastTo S5000x128 (shapeCast S1x128 x2 shapeCasts_S128_S1x128) broadcasts_S1x128_S5000x128 (ix2 p q))
      (Ideal.ofBits .f32 0x00000000#32) = _
  rw [matmul_at, bias_at, shapeCast_self]
  rfl

theorem hz2 : (![0, 0] : Fin 2 → Nat) = fun _ => 0 := funext fun a => by fin_cases a <;> rfl
theorem hz1 : (![0] : Fin 1 → Nat) = fun _ => 0 := funext fun a => by fin_cases a <;> rfl

/-- The output window's staging buffer after the body, at `(p, q)`. -/
theorem out_at (x0 : Vec Ideal S5000x128 .f32) (x1 : Vec Ideal S128x128 .f32) (x2 : Vec Ideal S128 .f32)
    (p : Fin 5000) (q : Fin 128) :
    out0_3 (F := Ideal) x0 x1 x2 (ix2 p q)
      = max ((∑ i : Fin 128, x0 (ix2 p i) * x1 (ix2 i q)) + x2 (ix1 q)) (Ideal.ofBits .f32 0x00000000#32) := by
  unfold out0_3
  rw [View.canon_unit_zero hz2]
  simp only [View.ld_unit_zero (S := S5000x128) hz2, View.ld_unit_zero (S := S128x128) hz2, View.ld_unit_zero (S := S128) hz1]
  exact stored_at x0 x1 x2 p q

/-! ## From blocks to the array -/

/-- Every node's transformed feature vector, as one function of the three arrays the call reads. -/
def rows (x : S50000x128.Idx → EReal) (wt : S128x128.Idx → EReal) (b : S128.Idx → EReal) : S50000x128.Idx → EReal :=
  fun j => max ((∑ i : Fin 128, x (ix2 (j 0) i) * wt (ix2 i (j 1))) + b (ix1 (j 1))) (Ideal.ofBits .f32 0x00000000#32)

variable (V : (c : Dev nD) → (b : Ref sig .tc) → Buf (Elt Ideal) ((c : Thread nD τ).loc b))

/-- The printed index maps over the grid: the `x` block and the output block are the same rows; the weight matrix and
    the bias are always block 0; there are 10 row blocks. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) ≤ 9 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- WHAT POINT `t` WRITES BACK is block `t` of `rows` of the arrays as the call finds them. -/
theorem flushed_eq (c : Dev nD) (t : Fin cfg0.N) :
    (dat0 V c).flushed 3 t = ((cfg0.win 3).blk t).view.read (Elt Ideal) (rows (V c main_arg0) (V c main_v0) (V c main_arg3)) := by
  show (cfg0.win 3).cut (grid0.coords t) ((dat0 V c).after 3 t) = _
  rw [after0_3]
  obtain ⟨e0, e1, e2, e3, e4, e5, e6⟩ := idx_facts t
  funext y
  obtain ⟨p, q, rfl⟩ : ∃ (p : Fin 5000) (q : Fin 128), y = ix2 p q := ⟨y 0, y 1, eq_ix2 y⟩
  show out0_3 (iblk0 V c 0 t) (iblk0 V c 1 t) (iblk0 V c 2 t) (ix2 p q)
      = rows (V c main_arg0) (V c main_v0) (V c main_arg3) (((cfg0.win 3).blk t).view.emb (ix2 p q))
  rw [out_at]
  have hq : (((cfg0.win 3).blk t).view.emb (ix2 p q) 1) = q := Fin.ext (by
    show win0_3.index t (1 : Fin 2) * 128 + 1 * q.val = q.val
    omega)
  have hx : ∀ i : Fin 128, iblk0 V c 0 t (ix2 p i) = V c main_arg0 (ix2 (((cfg0.win 3).blk t).view.emb (ix2 p q) 0) i) := fun i => by
    show V c main_arg0 (((cfg0.win 0).blk t).view.emb (ix2 p i)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * i.val = i.val; omega
  have hw : ∀ i : Fin 128, iblk0 V c 1 t (ix2 i q) = V c main_v0 (ix2 i (((cfg0.win 3).blk t).view.emb (ix2 p q) 1)) := fun i => by
    rw [hq]
    show V c main_v0 (((cfg0.win 1).blk t).view.emb (ix2 i q)) = _
    refine congrArg (V c main_v0) (funext fun a => Fin.ext ?_)
    match a with
    | ⟨0, _⟩ => show win0_1.index t (0 : Fin 2) * 128 + 1 * i.val = i.val; omega
    | ⟨1, _⟩ => show win0_1.index t (1 : Fin 2) * 128 + 1 * q.val = q.val; omega
  have hb : iblk0 V c 2 t (ix1 q) = V c main_arg3 (ix1 (((cfg0.win 3).blk t).view.emb (ix2 p q) 1)) := by
    rw [hq]
    show V c main_arg3 (((cfg0.win 2).blk t).view.emb (ix1 q)) = _
    refine congrArg (V c main_arg3) (funext fun a => Fin.ext ?_)
    match a with
    | ⟨0, _⟩ => show win0_2.index t (0 : Fin 1) * 128 + 1 * q.val = q.val; omega
  unfold rows
  simp only [hx, hw, hb]

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- The 10 blocks tile the node axis: row `r` is in block `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY AFTER THE CALL is `rows` of the arrays as the call finds them. -/
theorem final (c : Dev nD) :
    (dat0 V c).arrAt 3 cfg0.N = rows (V c main_arg0) (V c main_v0) (V c main_arg3) :=
  (dat0 V c).arrAt_eq_of_cover 3 _ (fun t _ => flushed_eq V c t) cover

end Cert.KernelIdeal.Linear

end
-- ==== Proof.PoolBlocks.lean ====
/-
  THE SECOND CALL: the maximum over the 32 neighbour slots.

  The second kernel call walks the 50000 nodes in 50 blocks of 1000.  Its operand is the gathered array `g : [50000, 32,
  128]` (node, slot, feature).  At each block it loads the 32 slot slices `g[·, k, ·]` one after the other and keeps a
  running maximum that STARTS at slot 0 and takes in slots 1 … 31 in order, then stores it (widened to f32: the
  identity on extended reals).  A running maximum started at the first term is the maximum from −∞ over all 32 terms,
  so the block's value at `(p, q)` is `max_k g[p, k, q]` from −∞.  The output block at point `t` is nodes `1000·t …`, the
  operand block the same nodes with all slots and features, so what point `t` writes back is the restriction of the
  whole-array function `slotMax g`; the 50 blocks tile the node axis.
-/
import proofs.«144462_j19155554140404_2_alg».proof.Proof.Gen.KernelIdeal.Frame
import proofs.«144462_j19155554140404_2_alg».proof.Proof.Spec
import Idealize.ShloMosaic.Lib.ValueIdx
import Idealize.ShloMosaic.Lib.Pipeline.Value

set_option maxRecDepth 16384

noncomputable section

namespace Cert.KernelIdeal.Pool

open Cert.KernelIdeal Cert.KernelIdeal.Gen Idealize.ShloMosaic Idealize.ShloMosaic.TcCoe Idealize.SL.Sem
open Idealize.ShloMosaic.ValueIdx Cert.Lib Cert.Spec
open Idealize.ShloMosaic.Pipeline (Dat)

/-! ## One slot slice, read at an index -/

/-- The rectangle of slot `k` in a block: all nodes, the one slot, all features. -/
theorem slot_inb (k : Fin 32) : ∀ a, (![0, k.val, 0] : Fin 3 → Nat) a + S1000x1x128.size a ≤ S1000x32x128.size a := fun a => by
  have hk := k.isLt
  match a with
  | ⟨0, _⟩ => show 0 + 1000 ≤ 1000; omega
  | ⟨1, _⟩ => show k.val + 1 ≤ 32; omega
  | ⟨2, _⟩ => show 0 + 128 ≤ 128; omega

/-- The slice of slot `k` loaded from a block `x0`. -/
abbrev slotLd (x0 : Vec Ideal S1000x32x128 .bf16) (k : Fin 32) : Vec Ideal S1000x1x128 .bf16 :=
  View.ld x0 (Rect.unit (s := S1000x32x128) ![0, k.val, 0] S1000x1x128.size (slot_inb k))

/-- A slot slice with its unit axis dropped reads, at `(p, q)`, the block at `(p, k, q)`. -/
theorem slot_at (x0 : Vec Ideal S1000x32x128 .bf16) (k : Fin 32) (p : Fin 1000) (q : Fin 128) :
    shapeCast S1000x128 (slotLd x0 k) shapeCasts_S1000x1x128_S1000x128 (ix2 p q) = x0 (ix3 p k q) := by
  refine (shapeCast_apply (slotLd x0 k) shapeCasts_S1000x1x128_S1000x128 (ix2 p q) (ix3 p (0 : Fin 1) q) ?_).trans ?_
  · rw [Shape.rowMajor_val_three, Shape.rowMajor_val_two]
    show (p.val * 1 + 0) * 128 + q.val = p.val * 128 + q.val
    omega
  · show x0 ((Rect.unit (s := S1000x32x128) ![0, k.val, 0] S1000x1x128.size (slot_inb k)).emb (ix3 p (0 : Fin 1) q)) = _
    refine congrArg x0 (funext fun a => Fin.ext ?_)
    match a with
    | ⟨0, _⟩ => show 0 + 1 * p.val = p.val; omega
    | ⟨1, _⟩ => show k.val + 1 * 0 = k.val; omega
    | ⟨2, _⟩ => show 0 + 1 * q.val = q.val; omega

/-! ## The body's value at an index -/

/-- What the body stores at `(p, q)`, for ANY 32 loaded slices: the running maximum that starts at slice 0 and takes in
    slices 1 … 31 in order (each with its unit axis dropped). -/
theorem stored_at (l : Fin 32 → Vec Ideal S1000x1x128 .bf16) (p : Fin 1000) (q : Fin 128) :
    k1_pay1 (F := Ideal) (k1_pay4 (k1_pay3 (k1_pay2 (l 0) (l 1) (l 2) (l 3) (l 4) (l 5) (l 6) (l 7) (l 8) (l 9)) (l 10) (l 11) (l 12) (l 13) (l 14) (l 15) (l 16) (l 17) (l 18) (l 19)) (l 20) (l 21) (l 22) (l 23) (l 24) (l 25) (l 26) (l 27) (l 28) (l 29)) (l 30) (l 31) (ix2 p q)
      = List.foldl max (shapeCast S1000x128 (l 0) shapeCasts_S1000x1x128_S1000x128 (ix2 p q))
          (List.ofFn fun i : Fin 31 => shapeCast S1000x128 (l i.succ) shapeCasts_S1000x1x128_S1000x128 (ix2 p q)) := rfl

theorem hz2 : (![0, 0] : Fin 2 → Nat) = fun _ => 0 := funext fun a => by fin_cases a <;> rfl

/-- The output window's staging buffer after the body, at `(p, q)`: the maximum from −∞ of the block over the slots. -/
theorem out_at (x0 : Vec Ideal S1000x32x128 .bf16) (p : Fin 1000) (q : Fin 128) :
    out1_1 (F := Ideal) x0 (ix2 p q)
      = (Finset.univ : Finset (Fin 32)).fold max (Ideal.ofBits .f32 0xFF800000#32) (fun k => x0 (ix3 p k q)) := by
  unfold out1_1
  rw [View.canon_unit_zero hz2]
  refine (stored_at (fun k => slotLd x0 k) p q).trans ?_
  refine (foldl_ofFn_succ_eq_fold_univ max (Ideal.ofBits .f32 0xFF800000#32)
    (fun k : Fin 32 => shapeCast S1000x128 (slotLd x0 k) shapeCasts_S1000x1x128_S1000x128 (ix2 p q)) (max_neg_inf _)).trans ?_
  exact Finset.fold_congr fun k _ => slot_at x0 k p q

/-! ## From blocks to the array -/

/-- The maximum from −∞ over the slot axis, as one function of the gathered array. -/
def slotMax (g : S50000x32x128.Idx → EReal) : S50000x128.Idx → EReal :=
  fun j => (Finset.univ : Finset (Fin 32)).fold max (Ideal.ofBits .f32 0xFF800000#32) (fun k => g (ix3 (j 0) k (j 1)))

variable (V : (c : Dev nD) → (b : Ref sig .tc) → Buf (Elt Ideal) ((c : Thread nD τ).loc b))

/-- The printed index maps over the grid: the operand block and the output block are the same nodes, every other block
    index is 0; there are 50 node blocks. -/
theorem idx_facts : ∀ t : Fin cfg1.N, win1_0.index t (0 : Fin 3) = win1_1.index t (0 : Fin 2)
    ∧ win1_0.index t (1 : Fin 3) = 0 ∧ win1_0.index t (2 : Fin 3) = 0 ∧ win1_1.index t (1 : Fin 2) = 0
    ∧ win1_1.index t (0 : Fin 2) ≤ 49 :=
  (by decide +kernel : ∀ t : Fin grid1.N, _)

/-- Every node block is some point's. -/
theorem idx_onto : ∀ q0 : Fin 50, ∃ t : Fin cfg1.N, win1_1.index t = ![q0.val, 0] :=
  (by decide +kernel : ∀ q0 : Fin 50, ∃ t : Fin grid1.N, win1_1.index t = ![q0.val, 0])

/-- WHAT POINT `t` WRITES BACK is block `t` of `slotMax` of the gathered array as the call finds it. -/
theorem flushed_eq (c : Dev nD) (t : Fin cfg1.N) :
    (dat1 V c).flushed 1 t = ((cfg1.win 1).blk t).view.read (Elt Ideal) (slotMax (V c main_v8)) := by
  show (cfg1.win 1).cut (grid1.coords t) ((dat1 V c).after 1 t) = _
  rw [after1_1]
  obtain ⟨e0, e1, e2, e3, e4⟩ := idx_facts t
  funext y
  obtain ⟨p, q, rfl⟩ : ∃ (p : Fin 1000) (q : Fin 128), y = ix2 p q := ⟨y 0, y 1, eq_ix2 y⟩
  show out1_1 (iblk1 V c 0 t) (ix2 p q) = slotMax (V c main_v8) (((cfg1.win 1).blk t).view.emb (ix2 p q))
  rw [out_at]
  unfold slotMax
  refine Finset.fold_congr fun k _ => ?_
  show V c main_v8 (((cfg1.win 0).blk t).view.emb (ix3 p k q)) = _
  refine congrArg (V c main_v8) (funext fun a => Fin.ext ?_)
  match a with
  | ⟨0, _⟩ => show win1_0.index t (0 : Fin 3) * 1000 + 1 * p.val = win1_1.index t (0 : Fin 2) * 1000 + 1 * p.val; omega
  | ⟨1, _⟩ => show win1_0.index t (1 : Fin 3) * 32 + 1 * k.val = k.val; omega
  | ⟨2, _⟩ => show win1_0.index t (2 : Fin 3) * 128 + 1 * q.val = win1_1.index t (1 : Fin 2) * 128 + 1 * q.val; omega

/-- An index of the array is in point `t`'s block iff each coordinate is in the block's range on its axis. -/
theorem mem_blk (t : Fin cfg1.N) (i : S50000x128.Idx) :
    i ∈ ((cfg1.win 1).blk t).view.set ↔ ∀ a : Fin 2, win1_1.index t a * S1000x128.size a ≤ (i a).val ∧ (i a).val < win1_1.index t a * S1000x128.size a + S1000x128.size a := by
  show i ∈ ((View.whole main_v9).slice (win1_1.rect t)).set ↔ _
  rw [View.set_slice_whole, Rect.mem_set_unit]
  exact Iff.rfl

/-- The 50 blocks tile the node axis: node `n` is in block `n / 1000`. -/
theorem cover (i : S50000x128.Idx) : ∃ t : Fin cfg1.N, (cfg1.win 1).flush t = true ∧ i ∈ ((cfg1.win 1).blk t).view.set := by
  have hi0 : (i 0).val < 50000 := (i 0).isLt
  have hi1 : (i 1).val < 128 := (i 1).isLt
  obtain ⟨t, ht⟩ := idx_onto ⟨(i 0).val / 1000, by omega⟩
  have q0 : win1_1.index t (0 : Fin 2) = (i 0).val / 1000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 1000 ≤ (i 0).val ∧ (i 0).val < win1_1.index t (0 : Fin 2) * 1000 + 1000; omega
  | ⟨1, _⟩ => show win1_1.index t (1 : Fin 2) * 128 ≤ (i 1).val ∧ (i 1).val < win1_1.index t (1 : Fin 2) * 128 + 128; omega

/-- THE OUTPUT ARRAY AFTER THE CALL is `slotMax` of the gathered array as the call finds it. -/
theorem final (c : Dev nD) : (dat1 V c).arrAt 1 cfg1.N = slotMax (V c main_v8) :=
  (dat1 V c).arrAt_eq_of_cover 1 _ (fun t _ => flushed_eq V c t) cover

end Cert.KernelIdeal.Pool

end
-- ==== Proof.KernelRun.lean ====
/-
  THE KERNEL PROGRAM'S RUN, with its result array named.

  The program is four segments: a host stretch (the weight matrix transposed), the first call (every node transformed
  once), a host stretch (negative neighbour entries wrapped once by the node count, the table reshaped to start indices,
  the transformed rows gathered), and the second call (the maximum over the slots).  Following the buffer contents through
  the four segments:

    * the result array is what the second call leaves: `slotMax` of the gathered array;
    * the gathered array is the row gather, at the wrapped neighbour table, of what the first call leaves;
    * the first call leaves `rows` of `x`, the transposed weight matrix and the bias;
    * the neighbour table, `x`, the weight matrix and the bias are as launched — nothing writes them.

  So every weakly fair execution terminates with the result array at `value` of the four launch arrays, and those
  arrays unchanged.
-/
import proofs.«144462_j19155554140404_2_alg».proof.Proof.LinearBlocks
import proofs.«144462_j19155554140404_2_alg».proof.Proof.PoolBlocks
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Linear Cert.KernelIdeal.Pool

local notation "𝕄" => MT nD τ sig Unit (Elt Ideal) ℕ (UR sig nD τ) ℕ

/-- The start-index array the program gathers at: the neighbour table, a negative entry wrapped once by the node
    count, as an array `[50000, 32, 1]`. -/
def startIdx (nb : (⟨S50000x32, .i32⟩ : BufTy).Contents (Elt Ideal)) : (⟨S50000x32x1, .i32⟩ : BufTy).Contents (Elt Ideal) :=
  broadcastInDim S50000x32x1 ![0, 1] bcast_S50000x32_S50000x32x1_0_1
    (select (cmpi .slt nb (broadcastInDim S50000x32 ![] bcast_S_S50000x32 (constantI S_ 32 0#32)))
      (addi nb (broadcastInDim S50000x32 ![] bcast_S_S50000x32 (constantI S_ 32 50000#32))) nb)

/-- The program's result as one function of its four launch arrays. -/
def value (x : (⟨S50000x128, .f32⟩ : BufTy).Contents (Elt Ideal)) (nb : (⟨S50000x32, .i32⟩ : BufTy).Contents (Elt Ideal))
    (W : (⟨S128x128, .f32⟩ : BufTy).Contents (Elt Ideal)) (b : (⟨S128, .f32⟩ : BufTy).Contents (Elt Ideal)) :
    (⟨S50000x128, .f32⟩ : BufTy).Contents (Elt Ideal) :=
  slotMax (Host.gather gather_S50000x128_S50000x32x1_S50000x32x128_2_0_n_n_0_2_1128 (rows x (transpose S128x128 [1, 0] W transposes_S128x128_S128x128_1_0) b) (startIdx nb))

variable (m : (ℓ : Loc nD τ sig) → Buf (Elt Ideal) ℓ) (ρ : Dev nD → PrngReg)

/-! ## The buffer contents read through the segments -/

/-- At the first call's entry the arguments are as launched and the transposed weight matrix is in place. -/
theorem V1_main_arg0 (c : Dev nD) : V1 m ρ c main_arg0 = m ((c : Thread nD τ).loc main_arg0) := by
  show StableHlo.after hostOps0 (W0 m ρ c) (Proc.devRef .tc main_arg0) = _
  after_results <;> rfl
theorem V1_main_arg3 (c : Dev nD) : V1 m ρ c main_arg3 = m ((c : Thread nD τ).loc main_arg3) := by
  show StableHlo.after hostOps0 (W0 m ρ c) (Proc.devRef .tc main_arg3) = _
  after_results <;> rfl
theorem V1_main_v0 (c : Dev nD) :
    V1 m ρ c main_v0 = transpose S128x128 [1, 0] (m ((c : Thread nD τ).loc main_arg2)) transposes_S128x128_S128x128_1_0 := by
  show StableHlo.after hostOps0 (W0 m ρ c) (Proc.devRef .tc main_v0) = _
  after_results <;> rfl
theorem W1_main_arg1 (c : Dev nD) : W1 m ρ c (Proc.devRef .tc main_arg1) = m ((c : Thread nD τ).loc main_arg1) := by
  show StableHlo.after hostOps0 (W0 m ρ c) (Proc.devRef .tc main_arg1) = _
  after_results <;> rfl

/-- After the first call its output array holds every node's transformed row. -/
theorem W2_main_v1 (c : Dev nD) : W2 m ρ c (Proc.devRef .tc main_v1)
    = rows (m ((c : Thread nD τ).loc main_arg0))
        (transpose S128x128 [1, 0] (m ((c : Thread nD τ).loc main_arg2)) transposes_S128x128_S128x128_1_0)
        (m ((c : Thread nD τ).loc main_arg3)) := by
  refine (W2_arr m ρ c 3).trans ?_
  rw [Linear.final (V1 m ρ) c, V1_main_arg0, V1_main_v0, V1_main_arg3]

/-- The first call does not touch the neighbour table. -/
theorem W2_main_arg1 (c : Dev nD) : W2 m ρ c (Proc.devRef .tc main_arg1) = m ((c : Thread nD τ).loc main_arg1) :=
  (W2_of_ne m ρ c main_arg1 (by decide)).trans (W1_main_arg1 m ρ c)

/-- At the second call's entry its operand is the row gather of the transformed rows at the wrapped table. -/
theorem V3_main_v8 (c : Dev nD) : V3 m ρ c main_v8
    = Host.gather gather_S50000x128_S50000x32x1_S50000x32x128_2_0_n_n_0_2_1128 (W2 m ρ c (Proc.devRef .tc main_v1)) (startIdx (W2 m ρ c (Proc.devRef .tc main_arg1))) := by
  show StableHlo.after hostOps1 (W2 m ρ c) (Proc.devRef .tc main_v8) = _
  unfold startIdx
  after_results <;> rfl

/-- THE RESULT ARRAY at the end of the fold is `value` of the launch arrays. -/
theorem W4_main_v9 (c : Dev nD) : W4 m ρ c (Proc.devRef .tc main_v9)
    = value (m ((c : Thread nD τ).loc main_arg0)) (m ((c : Thread nD τ).loc main_arg1))
        (m ((c : Thread nD τ).loc main_arg2)) (m ((c : Thread nD τ).loc main_arg3)) := by
  refine (W4_arr m ρ c 1).trans ?_
  rw [Pool.final (V3 m ρ) c, V3_main_v8, W2_main_v1, W2_main_arg1]
  rfl

/-! ## The run -/

-- matching the library's launch theorem against this statement needs plain definitions unfolded inside types
set_option backward.isDefEq.respectTransparency.types false in
/-- THE LAUNCH, at a general post.  From any memory with zero counters every weakly fair execution of the kernel program
    terminates, nothing faulting, in a memory that holds, at EVERY buffer that outlives the calls, what the fold through
    the four segments leaves there (`W4`); so any property `Q` of the final memory that follows from those readings
    holds.  The launch is the library's over the program's four segments: the first thread state is made from what the
    launch deals (the buffers at their launch contents, the generator register, nothing owed), and the last is read
    against the final state buffer by buffer. -/
theorem final_memory {Q : PUnit × MemSt nD τ sig (Elt Ideal) → Prop}
    (hQ : ∀ s : MemSt nD τ sig (Elt Ideal),
      (∀ c : Dev nD, ∀ b ∈ Pipeline.ucRefs τ sig, s.mem (((c : Thread nD τ)).1, b) = W4 m ρ c b) → Q (⟨⟩, s)) :
    θ_run defs (onTc (τ := τ) (main (F := Ideal))) ⟨m, fun _ => 0, ρ⟩ Q :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- THE KERNEL PROGRAM'S RUN: every weakly fair execution terminates, nothing faulting, with the result array at
    `value` of the launch arrays and the four argument arrays as launched — the result array and each argument read
    back through the fold. -/
theorem run : θ_run defs (onTc (τ := τ) (main (F := Ideal))) ⟨m, fun _ => 0, ρ⟩ (fun r => ∀ c : Dev nD,
      r.2.mem ((c.tc : Thread nD τ).loc main_v9) = value (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  final_memory m ρ fun s h c =>
    ⟨(h c _ (mem_uc main_v9 (by decide))).trans (W4_main_v9 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.Run

end
-- ==== Proof.KernelValue.lean ====
/-
  THE KERNEL PROGRAM COMPUTES THE SPECIFICATION.

  The program's result is the maximum over the slots of the GATHERED transformed rows.  A gathered row `(n, k, ·)` is
  the whole row `row J n k` of its operand, and the operand's row `r` is `relu (∑ i, x[r, i] · Wt[i, ·] + b)` with `Wt` the
  transposed weight matrix, `Wt[i, o] = W[o, i]`.  So at node `n`, feature `o` the result is

      max_k  max (∑ i, x[row J n k, i] · W[o, i] + b[o]) 0 ,

  which is `Spec.pooled` at the program's own start-index array.
-/
import proofs.«144462_j19155554140404_2_alg».proof.Proof.KernelRun
import proofs.«144462_j19155554140404_2_alg».proof.Proof.Spec
import Idealize.ShloMosaic.Lib.ValueLayout

noncomputable section

namespace Cert.KernelIdeal.Run

open Cert.KernelIdeal Cert.KernelIdeal.Gen Idealize.ShloMosaic Idealize.ShloMosaic.ValueIdx Cert.Lib Cert.Spec
open Cert.KernelIdeal.Linear Cert.KernelIdeal.Pool

/-- The printed gather's dimension numbers are those of a row gather. -/
theorem gatherDims_eq : gather_S50000x128_S50000x32x1_S50000x32x128_2_0_n_n_0_2_1128 = rowDims 50000 128 50000 32 gather_S50000x128_S50000x32x1_S50000x32x128_2_0_n_n_0_2_1128.wf := rfl

/-- A transformed row against the transposed weight matrix is the specification's `node`. -/
theorem rows_at (x : (⟨S50000x128, .f32⟩ : BufTy).Contents (Elt Ideal)) (W : (⟨S128x128, .f32⟩ : BufTy).Contents (Elt Ideal))
    (b : (⟨S128, .f32⟩ : BufTy).Contents (Elt Ideal)) (r : Fin 50000) (o : Fin 128) :
    rows x (transpose S128x128 [1, 0] W transposes_S128x128_S128x128_1_0) b (ix2 r o) = node x W b r o := by
  show max ((∑ i : Fin 128, x (ix2 r i) * transpose S128x128 [1, 0] W transposes_S128x128_S128x128_1_0 (ix2 i o)) + b (ix1 o))
      (Ideal.ofBits .f32 0x00000000#32) = _
  unfold node
  refine congrArg (fun s => max (s + b (ix1 o)) (Ideal.ofBits .f32 0x00000000#32)) (Finset.sum_congr rfl fun i _ => ?_)
  rw [transpose_ix2_apply]

/-- THE PROGRAM'S RESULT is the specification at the program's start-index array. -/
theorem value_eq (x : (⟨S50000x128, .f32⟩ : BufTy).Contents (Elt Ideal)) (nb : (⟨S50000x32, .i32⟩ : BufTy).Contents (Elt Ideal))
    (W : (⟨S128x128, .f32⟩ : BufTy).Contents (Elt Ideal)) (b : (⟨S128, .f32⟩ : BufTy).Contents (Elt Ideal)) :
    value x nb W b = pooled x (startIdx nb) W b := by
  funext j
  obtain ⟨n, o, rfl⟩ : ∃ (n : Fin 50000) (o : Fin 128), j = ix2 n o := ⟨j 0, j 1, eq_ix2 j⟩
  rw [pooled_ix2]
  show (Finset.univ : Finset (Fin 32)).fold max (Ideal.ofBits .f32 0xFF800000#32)
      (fun k => Host.gather gather_S50000x128_S50000x32x1_S50000x32x128_2_0_n_n_0_2_1128 (rows x (transpose S128x128 [1, 0] W transposes_S128x128_S128x128_1_0) b) (startIdx nb) (ix3 n k o)) = _
  refine Finset.fold_congr fun k _ => ?_
  rw [gatherDims_eq]
  refine (gather_rows_apply nodes_pos _ _ (startIdx nb) n k o).trans ?_
  exact rows_at x W b _ o

end Cert.KernelIdeal.Run

end
-- ==== Proof.lean ====
/-
  A graph layer — gather the neighbours' features, apply a shared linear map and `relu`, take the maximum over the 32
  neighbour slots — computed two ways, and the proof that the two ways agree on the extended reals.

  The reference gathers the raw feature row of every (node, slot) pair, transforms each gathered copy
  (`relu (W · x_r + b)`) and reduces with a maximum from −∞ over the slots.  The kernel program transforms every node
  ONCE (first call), gathers the transformed rows at the same start indices (host), and takes a running maximum over the
  slots (second call).  Both are

      out[n, o]  =  max_k  max (∑ i, x[row(n, k), i] · W[o, i] + b[o]) 0 ,        row(n, k) the node slot (n, k) names,

  because a gathered row is a whole row of the gather's operand, so the per-row transformation commutes with the gather;
  a running maximum started at its first term is the maximum from −∞; and the product against the transposed weight
  matrix reads `W[o, i]`.  The start indices (the neighbour table, negative entries wrapped once, clamped by the gather)
  are the same term in both programs.  No law that needs finite inputs is used: the precondition is never opened.

  The modules: `LibRowGather` (a row gather read at an index; a fold as a running fold), `Spec` (the function above),
  `RefValue` (the reference's last stage is it), `LinearBlocks` and `PoolBlocks` (what each call leaves in its output
  array, block by block and then as one function), `KernelRun` (the kernel program's run with its result array
  named), `KernelValue` (that result is the function above).  Below, the five claims.
-/
import proofs.«144462_j19155554140404_2_alg».proof.Defs
import proofs.«144462_j19155554140404_2_alg».proof.Proof.Gen.Kernel
import proofs.«144462_j19155554140404_2_alg».proof.Proof.Gen.Kernel.Skeleton
import proofs.«144462_j19155554140404_2_alg».proof.Proof.Gen.Kernel.Launch
import proofs.«144462_j19155554140404_2_alg».proof.Proof.Gen.Kernel.Points
import proofs.«144462_j19155554140404_2_alg».proof.Proof.Gen.Kernel.Frame
import proofs.«144462_j19155554140404_2_alg».proof.Proof.Gen.KernelIdeal
import proofs.«144462_j19155554140404_2_alg».proof.Proof.Gen.KernelIdeal.Skeleton
import proofs.«144462_j19155554140404_2_alg».proof.Proof.Gen.KernelIdeal.Launch
import proofs.«144462_j19155554140404_2_alg».proof.Proof.Gen.KernelIdeal.Points
import proofs.«144462_j19155554140404_2_alg».proof.Proof.Gen.KernelIdeal.Frame
import proofs.«144462_j19155554140404_2_alg».proof.Proof.Gen.ReferenceIdeal
import proofs.«144462_j19155554140404_2_alg».proof.Proof.Gen.Pre_finite_inputs
import proofs.«144462_j19155554140404_2_alg».proof.Proof.Gen.ReferenceIdeal.Run
import proofs.«144462_j19155554140404_2_alg».proof.Proof.Gen.ReferenceIdeal.Read
import proofs.«144462_j19155554140404_2_alg».proof.Proof.RefValue
import proofs.«144462_j19155554140404_2_alg».proof.Proof.KernelValue
import Idealize.ShloMosaic.Adequacy
import Idealize.ShloMosaic.Init

noncomputable section

namespace Cert.Proof

open Idealize.ShloMosaic Idealize.ShloMosaic.TcCoe Idealize.SL.Sem

/-- The two programs build their start indices by the same operations of the neighbour table. -/
theorem startIdx_eq (nb : (⟨Cert.KernelIdeal.S50000x32, .i32⟩ : BufTy).Contents (Elt Ideal)) :
    Cert.ReferenceIdeal.RefValue.J nb = Cert.KernelIdeal.Run.startIdx nb := rfl

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories agreeing on the four arguments both programs end with the result array at the specification of those
    arguments: the kernel program by its run and `value_eq`, the reference by its run and `result_eq`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.pooled (m ((c.tc : Thread Cert.KernelIdeal.nD Cert.KernelIdeal.τ).loc Cert.KernelIdeal.main_arg0))
      (Cert.KernelIdeal.Run.startIdx (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Run.value_eq _ _ _ _), (h c).2⟩) (Cert.KernelIdeal.Run.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v12_eq, Cert.ReferenceIdeal.RefValue.result_eq, startIdx_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
